-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S131072 : Shape := ⟨1, ![131072]⟩
abbrev S4096 : Shape := ⟨1, ![4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S131072 : S_.BroadcastsInDim S131072 (![] : Fin 0 → Fin S131072.rank)
  reducesTo_S131072_S_d0 : S131072.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2x4096x4096 .f32) (main_arg1 : FVec F S4096x4096 .f32) (main_arg2 : FVec F S131072 .f32) (main_arg3 : FVec F S4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S131072 .f32 := Host.absf main_arg2
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2x4096x4096 : Shape := ⟨3, ![2, 4096, 4096]⟩
abbrev S4096x4096 : Shape := ⟨2, ![4096, 4096]⟩
abbrev S131072 : Shape := ⟨1, ![131072]⟩
abbrev S4096 : Shape := ⟨1, ![4096]⟩
abbrev S8192x4096 : Shape := ⟨2, ![8192, 4096]⟩
abbrev S4096x32x128 : Shape := ⟨3, ![4096, 32, 128]⟩
abbrev S4096x32x1 : Shape := ⟨3, ![4096, 32, 1]⟩
abbrev S1x4096 : Shape := ⟨2, ![1, 4096]⟩
abbrev S2048x1024 : Shape := ⟨2, ![2048, 1024]⟩
abbrev S1024x8x128 : Shape := ⟨3, ![1024, 8, 128]⟩
abbrev S1024x8x1 : Shape := ⟨3, ![1024, 8, 1]⟩
abbrev S1x1024 : Shape := ⟨2, ![1, 1024]⟩
abbrev S1024x1024 : Shape := ⟨2, ![1024, 1024]⟩

abbrev nBuf : Space → Nat
  | .hbm => 12
  | .vmem => 11
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S131072, .f32⟩
  | .hbm, ⟨3, _⟩ => ⟨S4096, .f32⟩
  | .hbm, ⟨4, _⟩ => ⟨S8192x4096, .f32⟩
  | .hbm, ⟨5, _⟩ => ⟨S8192x4096, .bf16⟩
  | .hbm, ⟨6, _⟩ => ⟨S4096x32x128, .f32⟩
  | .hbm, ⟨7, _⟩ => ⟨S4096x32x128, .bf16⟩
  | .hbm, ⟨8, _⟩ => ⟨S4096x32x1, .f32⟩
  | .hbm, ⟨9, _⟩ => ⟨S1x4096, .f32⟩
  | .hbm, ⟨10, _⟩ => ⟨S8192x4096, .f32⟩
  | .hbm, ⟨11, _⟩ => ⟨S2x4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x8x128, .bf16⟩
  | .local _ .vmem, ⟨3, _⟩ => ⟨S1024x8x128, .bf16⟩
  | .local _ .vmem, ⟨4, _⟩ => ⟨S1024x8x1, .f32⟩
  | .local _ .vmem, ⟨5, _⟩ => ⟨S1024x8x1, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2x4096x4096_S8192x4096 : S2x4096x4096.ShapeCasts S8192x4096
  bitsLt_bf16_f32 : FTy.bits .bf16 < FTy.bits .f32
  shapeCasts_S4096x4096_S4096x32x128 : S4096x4096.ShapeCasts S4096x32x128
  shapeCasts_S131072_S4096x32x1 : S131072.ShapeCasts S4096x32x1
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x8x128_S1024x8x128_0_0_0 : ∀ a, (![0, 0, 0] : Fin 3 → Nat) a + S1024x8x128.size a ≤ S1024x8x128.size a
  h_S1024x8x128 : 0 < S1024x8x128.numel
  shapeCasts_S1024x8x128_S1024x8x128 : S1024x8x128.ShapeCasts S1024x8x128
  inb_S1024x8x1_S1024x8x1_0_0_0 : ∀ a, (![0, 0, 0] : Fin 3 → Nat) a + S1024x8x1.size a ≤ S1024x8x1.size a
  h_S1024x8x1 : 0 < S1024x8x1.numel
  shapeCasts_S1024x8x1_S1024x8x1 : S1024x8x1.ShapeCasts S1024x8x1
  broadcasts_S1024x8x1_S1024x8x128 : S1024x8x1.Broadcasts S1024x8x128
  shapeCasts_S1024x8x128_S1024x1024 : S1024x8x128.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S2x4096x4096 : S8192x4096.ShapeCasts S2x4096x4096
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8x128.size a ≤ S4096x32x128.size a
  hwx0_1 : ∀ i : grid0.Coords, EltTy.bits .bf16 = 32 ∨ (Rect.block (s := S4096x32x128) S1024x8x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x8x1.size a ≤ S4096x32x1.size a
  hwx0_2 : ∀ i : grid0.Coords, EltTy.bits .f32 = 32 ∨ (Rect.block (s := S4096x32x1) S1024x8x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x8x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S131072 : Shape := ⟨1, ![131072]⟩
abbrev S4096 : Shape := ⟨1, ![4096]⟩
abbrev S131072x128 : Shape := ⟨2, ![131072, 128]⟩
abbrev S131072x1 : Shape := ⟨2, ![131072, 1]⟩
abbrev S1x1x4096 : Shape := ⟨3, ![1, 1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S131072, .f32⟩
  | .hbm, ⟨3, _⟩ => ⟨S4096, .f32⟩
  | .hbm, ⟨4, _⟩ => ⟨S131072x128, .f32⟩
  | .hbm, ⟨5, _⟩ => ⟨S131072x1, .f32⟩
  | .hbm, ⟨6, _⟩ => ⟨S131072x128, .f32⟩
  | .hbm, ⟨7, _⟩ => ⟨S131072x128, .f32⟩
  | .hbm, ⟨8, _⟩ => ⟨S4096x4096, .f32⟩
  | .hbm, ⟨9, _⟩ => ⟨S2x4096x4096, .f32⟩
  | .hbm, ⟨10, _⟩ => ⟨S1x1x4096, .f32⟩
  | .hbm, ⟨11, _⟩ => ⟨S2x4096x4096, .f32⟩
  | .hbm, ⟨12, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S4096x4096_S131072x128 : S4096x4096.ShapeCasts S131072x128
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  shapeCasts_S131072x128_S4096x4096 : S131072x128.ShapeCasts S4096x4096
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x4096_S4096x4096_S2x4096x4096_2_1_01_0_n_n_wf : DotDims.WF S2x4096x4096 S4096x4096 S2x4096x4096 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf

class Facts : Prop extends Facts₀ where

variable [Facts]
-- ==== Proof.Pieces.lean ====
/-
  What each control case of the kernel body leaves behind, as the body's stored values.

  The body has three cases on the last grid coordinate k: at k = 0 it first stores the zero tile into the accumulator,
  then (in every case) loads the accumulator, adds the step's product tile and stores the sum back; at k = 3 it finally
  stores the accumulator plus the broadcast bias row into the output tile. Every store covers its whole tile and every
  load reads a whole tile, so what a case leaves in the accumulator (and, in the last case, in the output tile) is the
  stored value itself, with each load replaced by the contents it reads: the zero tile just stored in the first case,
  the accumulator as the previous step left it in the other two.
-/
import proofs.«120927_j11441792877192_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- The two-axis zero offset. -/
theorem hz2 : (![0, 0] : Fin 2 → Nat) = fun _ => 0 := funext fun a => by fin_cases a <;> rfl
/-- The three-axis zero offset. -/
theorem hz3 : (![0, 0, 0] : Fin 3 → Nat) = fun _ => 0 := funext fun a => by fin_cases a <;> rfl

/-- First step of a run (k = 0): the accumulator ends at the step's update of the zero tile. -/
theorem scr_A (c : Dev nD) (i : grid0.Coords) (a3 : Memref sig .tc .vmem S2048x1024 .bf16) (h3 : a3.IsWhole) (a4 : Memref sig .tc .vmem S1024x8x128 .bf16) (h4 : a4.IsWhole) (a5 : Memref sig .tc .vmem S1024x8x1 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : cond0_0 i) (hc1 : ¬cond0_1 i)
    (x0 : Vec F S2048x1024 .bf16) (x1 : Vec F S1024x8x128 .bf16) (x2 : Vec F S1024x8x1 .f32) (x3 : Vec F S1x1024 .f32) :
    sout0_A_0 c i a3 h3 a4 h4 a5 h5 a6 h6 a7 h7 a8 h8 hc0 hc1 x0 x1 x2 x3 = k0_pay2 x1 x2 (k0_pay1 (F := F)) x0 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S2048x1024) hz2, View.readCov_unit_zero (S := S2048x1024) _ hz2]
  simp only [View.readAt_eq_ld, h3.read_unread, h4.read_unread, h5.read_unread, h6.read_unread, h8.read_unread, View.ld_unit_zero (S := S2048x1024) hz2, View.ld_unit_zero (S := S1024x8x128) hz3, View.ld_unit_zero (S := S1024x8x1) hz3, View.ld_unit_zero (S := S1x1024) hz2]

/-- A middle step (k = 1, 2): the accumulator ends at the step's update of what the step before left. -/
theorem scr_B (c : Dev nD) (i : grid0.Coords) (a3 : Memref sig .tc .vmem S2048x1024 .bf16) (h3 : a3.IsWhole) (a4 : Memref sig .tc .vmem S1024x8x128 .bf16) (h4 : a4.IsWhole) (a5 : Memref sig .tc .vmem S1024x8x1 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : ¬cond0_1 i)
    (x0 : Vec F S2048x1024 .bf16) (x1 : Vec F S1024x8x128 .bf16) (x2 : Vec F S1024x8x1 .f32) (x3 : Vec F S1x1024 .f32) (xs0 : Vec F S2048x1024 .f32) :
    sout0_B_0 c i a3 h3 a4 h4 a5 h5 a6 h6 a7 h7 a8 h8 hc0 hc1 x0 x1 x2 x3 xs0 = k0_pay2 x1 x2 xs0 x0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz2]
  simp only [View.readAt_eq_ld, h3.read_unread, h4.read_unread, h5.read_unread, h6.read_unread, h8.read_unread, View.ld_unit_zero (S := S2048x1024) hz2, View.ld_unit_zero (S := S1024x8x128) hz3, View.ld_unit_zero (S := S1024x8x1) hz3, View.ld_unit_zero (S := S1x1024) hz2]

/-- The last step (k = 3): the accumulator again ends at the step's update of what the step before left, -/
theorem scr_C (c : Dev nD) (i : grid0.Coords) (a3 : Memref sig .tc .vmem S2048x1024 .bf16) (h3 : a3.IsWhole) (a4 : Memref sig .tc .vmem S1024x8x128 .bf16) (h4 : a4.IsWhole) (a5 : Memref sig .tc .vmem S1024x8x1 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : cond0_1 i)
    (x0 : Vec F S2048x1024 .bf16) (x1 : Vec F S1024x8x128 .bf16) (x2 : Vec F S1024x8x1 .f32) (x3 : Vec F S1x1024 .f32) (xs0 : Vec F S2048x1024 .f32) :
    sout0_C_0 c i a3 h3 a4 h4 a5 h5 a6 h6 a7 h7 a8 h8 hc0 hc1 x0 x1 x2 x3 xs0 = k0_pay2 x1 x2 xs0 x0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz2]
  simp only [View.readAt_eq_ld, h3.read_unread, h4.read_unread, h5.read_unread, h6.read_unread, h8.read_unread, View.ld_unit_zero (S := S2048x1024) hz2, View.ld_unit_zero (S := S1024x8x128) hz3, View.ld_unit_zero (S := S1024x8x1) hz3, View.ld_unit_zero (S := S1x1024) hz2]

/-- and the output tile ends at that accumulator plus the bias row. -/
theorem out_C (c : Dev nD) (i : grid0.Coords) (a3 : Memref sig .tc .vmem S2048x1024 .bf16) (h3 : a3.IsWhole) (a4 : Memref sig .tc .vmem S1024x8x128 .bf16) (h4 : a4.IsWhole) (a5 : Memref sig .tc .vmem S1024x8x1 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : cond0_1 i)
    (x0 : Vec F S2048x1024 .bf16) (x1 : Vec F S1024x8x128 .bf16) (x2 : Vec F S1024x8x1 .f32) (x3 : Vec F S1x1024 .f32) (xs0 : Vec F S2048x1024 .f32) :
    out0_C_4 c i a3 h3 a4 h4 a5 h5 a6 h6 a7 h7 a8 h8 hc0 hc1 x0 x1 x2 x3 xs0 = k0_pay3 (k0_pay2 x1 x2 xs0 x0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz2, View.readCov_unit_zero (S := S2048x1024) _ hz2]
  simp only [View.readAt_eq_ld, h3.read_unread, h4.read_unread, h5.read_unread, h6.read_unread, h8.read_unread, View.ld_unit_zero (S := S2048x1024) hz2, View.ld_unit_zero (S := S1024x8x128) hz3, View.ld_unit_zero (S := S1024x8x1) hz3, View.ld_unit_zero (S := S1x1024) hz2]

end Cert.KernelIdeal.Pieces

end
-- ==== Proof.Payload.lean ====
/-
  The kernel body's three stored values, read at one entry over the extended reals.

  The body keeps an accumulator tile acc : [2048, 1024]. It stores the zero tile at the first step of a run, then at
  every step stores acc + xb · (qb ⊙ sb)ᵀ, where xb : [2048, 1024] is a tile of the activations, qb : [1024, 8, 128] a
  tile of the quantized weight cut into runs of 128, and sb : [1024, 8, 1] the scale of each run; at the last step of a
  run it stores acc + (the bias row broadcast down the rows). Format changes are the identity on the extended reals and
  the matrix product into a zero tile is the plain sum of products.
-/
import proofs.«120927_j11441792877192_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- One step's contribution to entry (r, n) of the accumulator tile: the sum over the step's 1024 columns j of
    xb[r, j] · (qb[n, j / 128, j % 128] · sb[n, j / 128, 0]). -/
def tileDot (xb : Vec Ideal S2048x1024 .bf16) (qb : Vec Ideal S1024x8x128 .bf16) (sb : Vec Ideal S1024x8x1 .f32)
    (r : Fin 2048) (n : Fin 1024) : EReal :=
  ∑ j : Fin 1024, xb (ix2 r j) *
    (qb (ix3 n (⟨j.val / 128, by have := j.isLt; omega⟩ : Fin 8) (⟨j.val % 128, by omega⟩ : Fin 128))
      * sb (ix3 n (⟨j.val / 128, by have := j.isLt; omega⟩ : Fin 8) (0 : Fin 1)))

/-- The kernel's one matrix product: it contracts axis 1 of both operands. -/
private abbrev Dd := dot_S2048x1024_S1024x1024_S2048x1024_1_1_0_0_n_n

/-- The tile [1024, 8, 128] recast to [1024, 1024], read at (n, j), is the tile at (n, j / 128, j % 128): both have
    row-major position n · 1024 + j. -/
private theorem recast_apply {α : Type} (x : S1024x8x128.Idx → α) (n j : Fin 1024) :
    shapeCast S1024x1024 x shapeCasts_S1024x8x128_S1024x1024 (ix2 n j)
      = x (ix3 n (⟨j.val / 128, by have := j.isLt; omega⟩ : Fin 8) (⟨j.val % 128, by omega⟩ : Fin 128)) := by
  refine shapeCast_apply x shapeCasts_S1024x8x128_S1024x1024 (ix2 n j) _ ?_
  rewrite [Shape.rowMajor_val_three, Shape.rowMajor_val_two]
  have hj : j.val < 1024 := j.isLt
  show (n.val * 8 + j.val / 128) * 128 + j.val % 128 = n.val * 1024 + j.val
  omega

/-- The scale tile [1024, 8, 1] broadcast along its unit axis to [1024, 8, 128], read at (a, b, c), is the scale at
    (a, b, 0). -/
private theorem scale_bcast_apply {α : Type} (x : S1024x8x1.Idx → α) (a : Fin 1024) (b : Fin 8) (c : Fin 128) :
    broadcastTo S1024x8x128 x broadcasts_S1024x8x1_S1024x8x128 (ix3 a b c) = x (ix3 a b (0 : Fin 1)) := by
  refine broadcastTo_apply x broadcasts_S1024x8x1_S1024x8x128 (ix3 a b c) (ix3 a b (0 : Fin 1)) fun ax => ?_
  match ax with
  | ⟨0, _⟩ => show a.val = if (1024 : Nat) = 1 then 0 else a.val; rw [if_neg (by decide)]
  | ⟨1, _⟩ => show b.val = if (8 : Nat) = 1 then 0 else b.val; rw [if_neg (by decide)]
  | ⟨2, _⟩ => show 0 = if (1 : Nat) = 1 then 0 else c.val; rw [if_pos rfl]

/-- The left operand's row coordinate is the output's row. -/
private theorem lhs_0 (i : S2048x1024.Idx) (q : Dd.contr.Idx) : (Dd.lhsIdx i q 0).val = (i 0).val := by
  unfold DotDims.lhsIdx
  rw [dif_neg (show ¬(0 : Fin S2048x1024.rank) ∈ Dd.lhsBatch by decide),
    dif_pos (show (0 : Fin S2048x1024.rank) ∈ Dd.lhsNonContracting by decide)]
  rfl
/-- The left operand's column coordinate is the contraction position. -/
private theorem lhs_1 (i : S2048x1024.Idx) (q : Dd.contr.Idx) : (Dd.lhsIdx i q 1).val = (q ⟨0, by decide⟩).val :=
  Dd.lhsIdx_val_of_single rfl i q
/-- The right operand's row coordinate is the output's column. -/
private theorem rhs_0 (i : S2048x1024.Idx) (q : Dd.contr.Idx) : (Dd.rhsIdx i q 0).val = (i 1).val := by
  unfold DotDims.rhsIdx
  rw [dif_neg (show ¬(0 : Fin S1024x1024.rank) ∈ Dd.rhsBatch by decide),
    dif_pos (show (0 : Fin S1024x1024.rank) ∈ Dd.rhsNonContracting by decide)]
  rfl
/-- The right operand's column coordinate is the contraction position. -/
private theorem rhs_1 (i : S2048x1024.Idx) (q : Dd.contr.Idx) : (Dd.rhsIdx i q 1).val = (q ⟨0, by decide⟩).val :=
  Dd.rhsIdx_val_of_single rfl i q

/-- The matrix product into the zero tile, read at (r, n): the sum over the 1024 columns j of lhs[r, j] · rhs[n, j]. -/
private theorem matmul_zero_apply (lhs : FVec Ideal S2048x1024 .bf16) (rhs : FVec Ideal S1024x1024 .bf16)
    (r : Fin 2048) (n : Fin 1024) :
    matmul Dd none lhs rhs (constant (F := Ideal) S2048x1024 .f32 0x00000000#32) (ix2 r n)
      = ∑ j : Fin 1024, lhs (ix2 r j) * rhs (ix2 n j) := by
  refine (Ideal.matmul_constant_zero_apply Dd none lhs rhs (ix2 r n)).trans ?_
  rw [← Equiv.sum_comp (contrEquiv1 Dd 1024 rfl rfl).symm]
  refine Finset.sum_congr rfl fun k _ => ?_
  have hk := contrEquiv1_symm_val Dd 1024 rfl rfl k
  have el : Dd.lhsIdx (ix2 r n) ((contrEquiv1 Dd 1024 rfl rfl).symm k) = ix2 r k := funext fun a => Fin.ext (by
    match a with
    | ⟨0, _⟩ => exact lhs_0 _ _
    | ⟨1, _⟩ => exact (lhs_1 _ _).trans hk)
  have er : Dd.rhsIdx (ix2 r n) ((contrEquiv1 Dd 1024 rfl rfl).symm k) = ix2 n k := funext fun a => Fin.ext (by
    match a with
    | ⟨0, _⟩ => exact rhs_0 _ _
    | ⟨1, _⟩ => exact (rhs_1 _ _).trans hk)
  rw [el, er]

/-- The reset value is the zero tile. -/
theorem pay1_apply (i : S2048x1024.Idx) : k0_pay1 (F := Ideal) i = 0 := by
  unfold k0_pay1
  refine (congrFun (shapeCast_self _ shapeCasts_S2048x1024_S2048x1024) i).trans ?_
  exact Ideal.ofBits_zero_f32

/-- The accumulation step at entry (r, n): the accumulator's entry plus the step's contribution. -/
theorem pay2_apply (qb : Vec Ideal S1024x8x128 .bf16) (sb : Vec Ideal S1024x8x1 .f32) (acc : Vec Ideal S2048x1024 .f32)
    (xb : Vec Ideal S2048x1024 .bf16) (r : Fin 2048) (n : Fin 1024) :
    k0_pay2 qb sb acc xb (ix2 r n) = acc (ix2 r n) + tileDot xb qb sb r n := by
  unfold k0_pay2
  refine (congrFun (shapeCast_self _ shapeCasts_S2048x1024_S2048x1024) (ix2 r n)).trans ?_
  refine (addf_apply _ _ _).trans ?_
  refine congrArg (acc (ix2 r n) + ·) ?_
  refine (matmul_zero_apply _ _ r n).trans ?_
  unfold tileDot
  refine Finset.sum_congr rfl fun j _ => ?_
  refine congrArg₂ (· * ·) (congrFun (shapeCast_self xb shapeCasts_S2048x1024_S2048x1024) (ix2 r j)) ?_
  refine (truncf_apply _ bitsLt_bf16_f32 (ix2 n j)).trans ?_
  refine (recast_apply _ n j).trans ?_
  refine (mulf_apply _ _ _).trans ?_
  refine congrArg₂ (· * ·) ?_ ?_
  · refine (extf_apply _ bitsLt_bf16_f32 _).trans ?_
    exact congrFun (shapeCast_self qb shapeCasts_S1024x8x128_S1024x8x128) _
  · refine (scale_bcast_apply _ _ _ _).trans ?_
    exact congrFun (shapeCast_self sb shapeCasts_S1024x8x1_S1024x8x1) _

/-- The final store at entry (r, n): the accumulator's entry plus the bias of column n. -/
theorem pay3_apply (acc : Vec Ideal S2048x1024 .f32) (bb : Vec Ideal S1x1024 .f32) (r : Fin 2048) (n : Fin 1024) :
    k0_pay3 acc bb (ix2 r n) = acc (ix2 r n) + bb (ix2 (0 : Fin 1) n) := by
  unfold k0_pay3
  refine (addf_apply _ _ _).trans ?_
  refine congrArg (acc (ix2 r n) + ·) ?_
  refine (broadcastTo_1b_ab_apply _ broadcasts_S1x1024_S2048x1024 r n).trans ?_
  exact congrFun (shapeCast_self bb shapeCasts_S1x1024_S1x1024) _

end Cert.KernelIdeal.Pay

end
-- ==== Proof.Acc.lean ====
/-
  What the accumulator and the output tile hold after each grid point.

  The 64 grid points run in order; point t has step k = t % 4, and the four points 4p, 4p+1, 4p+2, 4p+3 form one run
  over the same output tile. Writing d(t) for point t's product tile (its 1024 columns' sum of products), the
  accumulator after point t holds d(4p) + … + d(t), p = t / 4: at k = 0 it is 0 + d(t), at every later step what the
  point before left plus d(t). At the last step of a run the output tile holds that sum plus the bias row. The proof is
  an induction on the point; addition on the extended reals is associative and has 0 as unit, which is all it uses.
-/
import proofs.«120927_j11441792877192_2_alg».proof.Proof.Pieces
import proofs.«120927_j11441792877192_2_alg».proof.Proof.Payload

noncomputable section

namespace Cert.KernelIdeal.Acc

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- After a first step (k = 0) the accumulator is the step's update of the zero tile. -/
theorem scr_first (c : Dev nD) (t : Fin cfg0.N) (h0 : t.val % 4 = 0) :
    (outsAt0 m c t.val t.isLt).2
      = k0_pay2 (iblk m c 1 t) (iblk m c 2 t) (k0_pay1 (F := Ideal)) (iblk m c 0 t) := by
  have h1 : ¬t.val % 4 = 3 := by omega
  rw [outsAt0_A m c t h0 h1]
  dsimp only
  exact Pieces.scr_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) ((hcond0_0 t).mpr h0) (fun h => h1 ((hcond0_1 t).mp h)) (iblk m c 0 t) (iblk m c 1 t) (iblk m c 2 t) (iblk m c 3 t)

/-- After a later step (k ≠ 0) the accumulator is the step's update of what the point before left. -/
theorem scr_later (c : Dev nD) (t : Fin cfg0.N) (h0 : ¬t.val % 4 = 0) :
    (outsAt0 m c t.val t.isLt).2
      = k0_pay2 (iblk m c 1 t) (iblk m c 2 t)
          (outsAt0 m c (t.val - 1) (Nat.lt_of_le_of_lt (Nat.sub_le _ _) t.isLt)).2 (iblk m c 0 t) := by
  by_cases h1 : t.val % 4 = 3
  · rw [outsAt0_C m c t h0 h1]
    dsimp only
    exact Pieces.scr_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact Pieces.scr_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- After a last step (k = 3) the output tile is the accumulator plus the bias row. -/
theorem out_last (c : Dev nD) (t : Fin cfg0.N) (h1 : t.val % 4 = 3) :
    (outsAt0 m c t.val t.isLt).1 = k0_pay3 (outsAt0 m c t.val t.isLt).2 (iblk m c 3 t) := by
  have h0 : ¬t.val % 4 = 0 := by omega
  rw [outsAt0_C m c t h0 h1]
  dsimp only
  rw [Pieces.scr_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2]
  exact Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- Point t's product tile at entry (r, n); zero past the grid. -/
def dotN (c : Dev nD) (t : ℕ) (r : Fin 2048) (n : Fin 1024) : EReal :=
  if h : t < cfg0.N then Pay.tileDot (iblk m c 0 ⟨t, h⟩) (iblk m c 1 ⟨t, h⟩) (iblk m c 2 ⟨t, h⟩) r n else 0

theorem dotN_of_lt (c : Dev nD) (t : ℕ) (h : t < cfg0.N) (r : Fin 2048) (n : Fin 1024) :
    dotN m c t r n = Pay.tileDot (iblk m c 0 ⟨t, h⟩) (iblk m c 1 ⟨t, h⟩) (iblk m c 2 ⟨t, h⟩) r n := dif_pos h

/-- THE ACCUMULATOR after point t holds, at (r, n), the sum of the product tiles of the points 4·(t/4), …, t. -/
theorem acc_eq (c : Dev nD) : ∀ (t : ℕ) (h : t < cfg0.N) (r : Fin 2048) (n : Fin 1024),
    (outsAt0 m c t h).2 (ix2 r n) = ∑ s ∈ Finset.range (t % 4 + 1), dotN m c (4 * (t / 4) + s) r n
  | 0, h, r, n => by
    refine (congrFun (scr_first m c ⟨0, h⟩ rfl) (ix2 r n)).trans ?_
    refine (Pay.pay2_apply (iblk m c 1 ⟨0, h⟩) (iblk m c 2 ⟨0, h⟩) (k0_pay1 (F := Ideal)) (iblk m c 0 ⟨0, h⟩) r n).trans ?_
    rw [Pay.pay1_apply, zero_add]
    show _ = ∑ s ∈ Finset.range 1, dotN m c (0 + s) r n
    rw [Finset.sum_range_one, dotN_of_lt m c (0 + 0) h]
  | t + 1, h, r, n => by
    by_cases h0 : (t + 1) % 4 = 0
    · refine (congrFun (scr_first m c ⟨t + 1, h⟩ h0) (ix2 r n)).trans ?_
      refine (Pay.pay2_apply (iblk m c 1 ⟨t + 1, h⟩) (iblk m c 2 ⟨t + 1, h⟩) (k0_pay1 (F := Ideal)) (iblk m c 0 ⟨t + 1, h⟩) r n).trans ?_
      rw [Pay.pay1_apply, zero_add, h0, Finset.sum_range_one]
      have e : 4 * ((t + 1) / 4) + 0 = t + 1 := by omega
      rw [e, dotN_of_lt m c (t + 1) h]
    · refine (congrFun (scr_later m c ⟨t + 1, h⟩ h0) (ix2 r n)).trans ?_
      refine (Pay.pay2_apply (iblk m c 1 ⟨t + 1, h⟩) (iblk m c 2 ⟨t + 1, h⟩) _ (iblk m c 0 ⟨t + 1, h⟩) r n).trans ?_
      have ih := acc_eq c t (Nat.lt_of_succ_lt h) r n
      have e1 : (t + 1) % 4 = t % 4 + 1 := by omega
      have e2 : (t + 1) / 4 = t / 4 := by omega
      have e3 : 4 * (t / 4) + (t % 4 + 1) = t + 1 := by omega
      rw [e1, e2, Finset.sum_range_succ, ← ih, e3, dotN_of_lt m c (t + 1) h]
      rfl

end Cert.KernelIdeal.Acc

end
-- ==== Proof.Spec.lean ====
/-
  The common value of the two programs, as one function of the four argument arrays.

  With x : [2, 4096, 4096], q : [4096, 4096] (the quantized weight), s : [131072] (one scale per run of 128
  consecutive entries of q in row-major order) and b : [4096], both programs compute, over the extended reals,

      y[B, S, n] = (Σ_{k < 4096} x[B, S, k] · (q[n, k] · s[(n·4096 + k) / 128])) + b[n].

  `lin3` is that function on the [2, 4096, 4096] result; `lin2` is the same function on the [8192, 4096] array whose
  row R = B·4096 + S is row (B, S) of the result. The only algebra needed between the two programs is the regrouping
  of the sum over k into four consecutive runs of 1024 (`sum_four_runs`), which holds in any additive commutative
  monoid, hence on the extended reals with no finiteness assumption.
-/
import Idealize.ShloMosaic.PureOps.Ideal
import Idealize.ShloMosaic.Lib.ValueIdx
import Mathlib.Algebra.BigOperators.Fin
import Mathlib.Algebra.BigOperators.Intervals

noncomputable section

namespace Cert.Spec

open Idealize.ShloMosaic Idealize.ShloMosaic.ValueIdx

/-- The dequantized weight entry (n, k): the quantized entry times the scale of its run of 128. -/
def wdq (q : (⟨2, ![4096, 4096]⟩ : Shape).Idx → EReal) (s : (⟨1, ![131072]⟩ : Shape).Idx → EReal)
    (n k : Fin 4096) : EReal :=
  q (ix2 n k) * s (ix1 ⟨(n.val * 4096 + k.val) / 128, by have := n.isLt; have := k.isLt; omega⟩)

/-- Entry k of row R of x read as an [8192, 4096] array: row R is (R / 4096, R % 4096). -/
def xrow (x : (⟨3, ![2, 4096, 4096]⟩ : Shape).Idx → EReal) (R : Fin 8192) (k : Fin 4096) : EReal :=
  x (ix3 (⟨R.val / 4096, by have := R.isLt; omega⟩ : Fin 2) (⟨R.val % 4096, by omega⟩ : Fin 4096) k)

/-- The result at row R and column n of the [8192, 4096] array. -/
def lin2at (x : (⟨3, ![2, 4096, 4096]⟩ : Shape).Idx → EReal) (q : (⟨2, ![4096, 4096]⟩ : Shape).Idx → EReal)
    (s : (⟨1, ![131072]⟩ : Shape).Idx → EReal) (b : (⟨1, ![4096]⟩ : Shape).Idx → EReal)
    (R : Fin 8192) (n : Fin 4096) : EReal :=
  (∑ k : Fin 4096, xrow x R k * wdq q s n k) + b (ix1 n)

/-- The result as an [8192, 4096] array. -/
def lin2 (x : (⟨3, ![2, 4096, 4096]⟩ : Shape).Idx → EReal) (q : (⟨2, ![4096, 4096]⟩ : Shape).Idx → EReal)
    (s : (⟨1, ![131072]⟩ : Shape).Idx → EReal) (b : (⟨1, ![4096]⟩ : Shape).Idx → EReal) :
    (⟨2, ![8192, 4096]⟩ : Shape).Idx → EReal :=
  fun i => lin2at x q s b (i 0) (i 1)

/-- The result at (B, S, n) of the [2, 4096, 4096] array. -/
def lin3at (x : (⟨3, ![2, 4096, 4096]⟩ : Shape).Idx → EReal) (q : (⟨2, ![4096, 4096]⟩ : Shape).Idx → EReal)
    (s : (⟨1, ![131072]⟩ : Shape).Idx → EReal) (b : (⟨1, ![4096]⟩ : Shape).Idx → EReal)
    (B : Fin 2) (S n : Fin 4096) : EReal :=
  (∑ k : Fin 4096, x (ix3 B S k) * wdq q s n k) + b (ix1 n)

/-- The result as a [2, 4096, 4096] array. -/
def lin3 (x : (⟨3, ![2, 4096, 4096]⟩ : Shape).Idx → EReal) (q : (⟨2, ![4096, 4096]⟩ : Shape).Idx → EReal)
    (s : (⟨1, ![131072]⟩ : Shape).Idx → EReal) (b : (⟨1, ![4096]⟩ : Shape).Idx → EReal) :
    (⟨3, ![2, 4096, 4096]⟩ : Shape).Idx → EReal :=
  fun i => lin3at x q s b (i 0) (i 1) (i 2)

/-- Row B·4096 + S of the [8192, 4096] array is row (B, S) of the [2, 4096, 4096] one. -/
theorem lin2at_row (x : (⟨3, ![2, 4096, 4096]⟩ : Shape).Idx → EReal) (q : (⟨2, ![4096, 4096]⟩ : Shape).Idx → EReal)
    (s : (⟨1, ![131072]⟩ : Shape).Idx → EReal) (b : (⟨1, ![4096]⟩ : Shape).Idx → EReal)
    (B : Fin 2) (S n : Fin 4096) (R : Fin 8192) (hR : R.val = B.val * 4096 + S.val) :
    lin2at x q s b R n = lin3at x q s b B S n := by
  unfold lin2at lin3at xrow
  have h0 : (⟨R.val / 4096, by have := R.isLt; omega⟩ : Fin 2) = B := Fin.ext (by have := S.isLt; show R.val / 4096 = B.val; omega)
  have h1 : (⟨R.val % 4096, by omega⟩ : Fin 4096) = S := Fin.ext (by have := S.isLt; show R.val % 4096 = S.val; omega)
  rw [h0, h1]

variable {M : Type*} [AddCommMonoid M]

/-- A sum over 4096 consecutive indices is the sum of its four consecutive runs of 1024. -/
theorem sum_four_runs (g : ℕ → M) :
    (∑ t ∈ Finset.range 4, ∑ j : Fin 1024, g (t * 1024 + j.val)) = ∑ k : Fin 4096, g k.val := by
  rw [Fin.sum_univ_eq_sum_range (fun k => g k) 4096]
  have e : ∀ t : ℕ, (∑ j : Fin 1024, g (t * 1024 + j.val)) = ∑ j ∈ Finset.range 1024, g (t * 1024 + j) :=
    fun t => Fin.sum_univ_eq_sum_range (fun j => g (t * 1024 + j)) 1024
  simp only [e]
  rw [show (4096 : ℕ) = 1024 + 1024 + 1024 + 1024 from rfl, Finset.sum_range_add, Finset.sum_range_add,
    Finset.sum_range_add]
  simp only [Finset.sum_range_succ, Finset.sum_range_zero, zero_add, Nat.zero_mul, Nat.one_mul]

end Cert.Spec

end
-- ==== Proof.Blocks.lean ====
/-
  The kernel's input tiles at a grid point, read off the argument arrays.

  Grid point t of the 4 x 4 x 4 grid has coordinates (t / 16, t / 4 % 4, t % 4) = (row tile, column tile, step). Before
  the kernel the host reshapes x to [8192, 4096], the quantized weight to [4096, 32, 128], the scales to [4096, 32, 1]
  and the bias to [1, 4096] (row-major recasts; the format changes are the identity on the extended reals). So:
    the x tile at t holds rows (t/16)·2048 + r and columns (t%4)·1024 + j of the flattened x;
    the weight tile holds q[(t/4%4)·1024 + n, ((t%4)·8 + a)·128 + l];
    the scale tile holds s[((t/4%4)·1024 + n)·32 + (t%4)·8 + a];
    the bias tile holds b[(t/4%4)·1024 + n].
-/
import proofs.«120927_j11441792877192_2_alg».proof.Proof.Gen.KernelIdeal.Frame.Runs
import proofs.«120927_j11441792877192_2_alg».proof.Proof.Spec
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The grid has 64 points. -/
theorem hN : cfg0.N = 64 := N_0

/-- The x window's block index at point t is (t / 16, t % 4). -/
private theorem idx0 : ∀ t : Fin cfg0.N, win0_0.index t (0 : Fin 2) = t.val / 16 ∧ win0_0.index t (1 : Fin 2) = t.val % 4 :=
  (by decide +kernel : ∀ t : Fin grid0.N, _)

/-- The weight window's block index at point t is (t / 4 % 4, t % 4, 0). -/
private theorem idx1 : ∀ t : Fin cfg0.N, win0_1.index t (0 : Fin 3) = t.val / 4 % 4 ∧ win0_1.index t (1 : Fin 3) = t.val % 4
    ∧ win0_1.index t (2 : Fin 3) = 0 :=
  (by decide +kernel : ∀ t : Fin grid0.N, _)

/-- The scale window's block index at point t is (t / 4 % 4, t % 4, 0). -/
private theorem idx2 : ∀ t : Fin cfg0.N, win0_2.index t (0 : Fin 3) = t.val / 4 % 4 ∧ win0_2.index t (1 : Fin 3) = t.val % 4
    ∧ win0_2.index t (2 : Fin 3) = 0 :=
  (by decide +kernel : ∀ t : Fin grid0.N, _)

/-- The bias window's block index at point t is (0, t / 4 % 4). -/
private theorem idx3 : ∀ t : Fin cfg0.N, win0_3.index t (0 : Fin 2) = 0 ∧ win0_3.index t (1 : Fin 2) = t.val / 4 % 4 :=
  (by decide +kernel : ∀ t : Fin grid0.N, _)

/-! ## The arrays as the kernel finds them -/

/-- The x array the kernel reads: x recast row-major to [8192, 4096], then narrowed. -/
private theorem arr0 (c : Dev nD) : @Eq (Vec Ideal S8192x4096 .bf16) (V m c main_v1)
    (truncf (F := Ideal) .bf16 (shapeCast S8192x4096 (m ((c : Thread nD τ).loc main_arg0) : Vec Ideal S2x4096x4096 .f32)
      shapeCasts_S2x4096x4096_S8192x4096) bitsLt_bf16_f32) := by
  show StableHlo.after hostOps0 (fun b => m (c, b)) (Proc.devRef .tc main_v1) = _
  after_results
  rfl

/-- The weight array the kernel reads: q recast row-major to [4096, 32, 128], then narrowed. -/
private theorem arr1 (c : Dev nD) : @Eq (Vec Ideal S4096x32x128 .bf16) (V m c main_v3)
    (truncf (F := Ideal) .bf16 (shapeCast S4096x32x128 (m ((c : Thread nD τ).loc main_arg1) : Vec Ideal S4096x4096 .f32)
      shapeCasts_S4096x4096_S4096x32x128) bitsLt_bf16_f32) := by
  show StableHlo.after hostOps0 (fun b => m (c, b)) (Proc.devRef .tc main_v3) = _
  after_results
  rfl

/-- The scale array the kernel reads: s recast row-major to [4096, 32, 1]. -/
private theorem arr2 (c : Dev nD) : @Eq (Vec Ideal S4096x32x1 .f32) (V m c main_v4)
    (shapeCast S4096x32x1 (m ((c : Thread nD τ).loc main_arg2) : Vec Ideal S131072 .f32) shapeCasts_S131072_S4096x32x1) := by
  show StableHlo.after hostOps0 (fun b => m (c, b)) (Proc.devRef .tc main_v4) = _
  after_results
  rfl

/-- The bias array the kernel reads: b recast to [1, 4096]. -/
private theorem arr3 (c : Dev nD) : @Eq (Vec Ideal S1x4096 .f32) (V m c main_v5)
    (shapeCast S1x4096 (m ((c : Thread nD τ).loc main_arg3) : Vec Ideal S4096 .f32) shapeCasts_S4096_S1x4096) := by
  show StableHlo.after hostOps0 (fun b => m (c, b)) (Proc.devRef .tc main_v5) = _
  after_results
  rfl

/-! ## The recast arrays read at an index -/

/-- Entry (R, k) of x recast to [8192, 4096] is entry k of row (R / 4096, R % 4096) of x. -/
private theorem x_at (x : Vec Ideal S2x4096x4096 .f32) (i : S8192x4096.Idx) (R : Fin 8192) (k : Fin 4096)
    (h0 : (i 0).val = R.val) (h1 : (i 1).val = k.val) :
    (truncf (F := Ideal) .bf16 (shapeCast S8192x4096 x shapeCasts_S2x4096x4096_S8192x4096) bitsLt_bf16_f32
      : Vec Ideal S8192x4096 .bf16) i = Cert.Spec.xrow x R k := by
  unfold Cert.Spec.xrow
  refine shapeCast_apply x shapeCasts_S2x4096x4096_S8192x4096 i _ ?_
  rw [Shape.rowMajor_val_three, Shape.rowMajor_val_two]
  have hR := R.isLt
  show (R.val / 4096 * 4096 + R.val % 4096) * 4096 + k.val = (i 0).val * 4096 + (i 1).val
  rw [h0, h1]; omega

/-- Entry (N, a, l) of q recast to [4096, 32, 128] is q[N, a·128 + l]. -/
private theorem q_at (q : Vec Ideal S4096x4096 .f32) (i : S4096x32x128.Idx) (N K : Fin 4096)
    (h0 : (i 0).val = N.val) (hK : K.val = (i 1).val * 128 + (i 2).val) :
    (truncf (F := Ideal) .bf16 (shapeCast S4096x32x128 q shapeCasts_S4096x4096_S4096x32x128) bitsLt_bf16_f32
      : Vec Ideal S4096x32x128 .bf16) i = q (ix2 N K) := by
  refine shapeCast_apply q shapeCasts_S4096x4096_S4096x32x128 i _ ?_
  rw [Shape.rowMajor_val_three, Shape.rowMajor_val_two]
  show N.val * 4096 + K.val = ((i 0).val * 32 + (i 1).val) * 128 + (i 2).val
  rw [h0, hK]; omega

/-- Entry (N, a, 0) of s recast to [4096, 32, 1] is s[N·32 + a]. -/
private theorem s_at (s : Vec Ideal S131072 .f32) (i : S4096x32x1.Idx) (J : Fin 131072)
    (hJ : J.val = (i 0).val * 32 + (i 1).val) (h2 : (i 2).val = 0) :
    (shapeCast S4096x32x1 s shapeCasts_S131072_S4096x32x1 : Vec Ideal S4096x32x1 .f32) i = s (ix1 J) := by
  refine shapeCast_apply s shapeCasts_S131072_S4096x32x1 i _ ?_
  rw [Shape.rowMajor_val_three, Shape.rowMajor_val_one]
  show J.val = ((i 0).val * 32 + (i 1).val) * 1 + (i 2).val
  rw [hJ, h2]; omega

/-- Entry (0, N) of b recast to [1, 4096] is b[N]. -/
private theorem b_at (b : Vec Ideal S4096 .f32) (i : S1x4096.Idx) (N : Fin 4096)
    (h0 : (i 0).val = 0) (h1 : (i 1).val = N.val) :
    (shapeCast S1x4096 b shapeCasts_S4096_S1x4096 : Vec Ideal S1x4096 .f32) i = b (ix1 N) := by
  refine shapeCast_apply b shapeCasts_S4096_S1x4096 i _ ?_
  rw [Shape.rowMajor_val_two, Shape.rowMajor_val_one]
  show N.val = (i 0).val * 4096 + (i 1).val
  rw [h0, h1]; omega

/-! ## The tiles -/

/-- The x tile at point t: row (t/16)·2048 + r, column (t%4)·1024 + j of x flattened to [8192, 4096]. -/
theorem x_blk (c : Dev nD) (t : Fin cfg0.N) (r : Fin 2048) (j : Fin 1024) :
    (iblk m c 0 t : Vec Ideal S2048x1024 .bf16) (ix2 r j)
      = Cert.Spec.xrow (m ((c : Thread nD τ).loc main_arg0))
          ⟨t.val / 16 * 2048 + r.val, by have := t.isLt; have := hN; have := r.isLt; omega⟩
          ⟨t.val % 4 * 1024 + j.val, by have := j.isLt; omega⟩ := by
  unfold iblk
  rw [View.read_apply]
  show V m c main_v1 (((cfg0.win 0).blk t).view.emb (ix2 r j)) = _
  refine (congrFun (arr0 m c) _).trans (x_at _ _ _ _ ?_ ?_)
  · show win0_0.index t (0 : Fin 2) * 2048 + 1 * r.val = t.val / 16 * 2048 + r.val
    rw [(idx0 t).1]; omega
  · show win0_0.index t (1 : Fin 2) * 1024 + 1 * j.val = t.val % 4 * 1024 + j.val
    rw [(idx0 t).2]; omega

/-- The weight tile at point t: q[(t/4%4)·1024 + n, ((t%4)·8 + a)·128 + l]. -/
theorem q_blk (c : Dev nD) (t : Fin cfg0.N) (n : Fin 1024) (a : Fin 8) (l : Fin 128) :
    (iblk m c 1 t : Vec Ideal S1024x8x128 .bf16) (ix3 n a l)
      = m ((c : Thread nD τ).loc main_arg1)
          (ix2 (⟨t.val / 4 % 4 * 1024 + n.val, by have := n.isLt; omega⟩ : Fin 4096)
               (⟨(t.val % 4 * 8 + a.val) * 128 + l.val, by have := a.isLt; have := l.isLt; omega⟩ : Fin 4096)) := by
  unfold iblk
  rw [View.read_apply]
  show V m c main_v3 (((cfg0.win 1).blk t).view.emb (ix3 n a l)) = _
  refine (congrFun (arr1 m c) _).trans (q_at _ _ _ _ ?_ ?_)
  · show win0_1.index t (0 : Fin 3) * 1024 + 1 * n.val = t.val / 4 % 4 * 1024 + n.val
    rw [(idx1 t).1]; omega
  · show (t.val % 4 * 8 + a.val) * 128 + l.val
      = (win0_1.index t (1 : Fin 3) * 8 + 1 * a.val) * 128 + (win0_1.index t (2 : Fin 3) * 128 + 1 * l.val)
    rw [(idx1 t).2.1, (idx1 t).2.2]; omega

/-- The scale tile at point t: s[((t/4%4)·1024 + n)·32 + (t%4)·8 + a]. -/
theorem s_blk (c : Dev nD) (t : Fin cfg0.N) (n : Fin 1024) (a : Fin 8) :
    (iblk m c 2 t : Vec Ideal S1024x8x1 .f32) (ix3 n a (0 : Fin 1))
      = m ((c : Thread nD τ).loc main_arg2)
          (ix1 (⟨(t.val / 4 % 4 * 1024 + n.val) * 32 + (t.val % 4 * 8 + a.val), by have := n.isLt; have := a.isLt; omega⟩ : Fin 131072)) := by
  unfold iblk
  rw [View.read_apply]
  show V m c main_v4 (((cfg0.win 2).blk t).view.emb (ix3 n a (0 : Fin 1))) = _
  refine (congrFun (arr2 m c) _).trans (s_at _ _ _ ?_ ?_)
  · show (t.val / 4 % 4 * 1024 + n.val) * 32 + (t.val % 4 * 8 + a.val)
      = (win0_2.index t (0 : Fin 3) * 1024 + 1 * n.val) * 32 + (win0_2.index t (1 : Fin 3) * 8 + 1 * a.val)
    rw [(idx2 t).1, (idx2 t).2.1]; omega
  · show win0_2.index t (2 : Fin 3) * 1 + 1 * 0 = 0
    rw [(idx2 t).2.2]

/-- The bias tile at point t: b[(t/4%4)·1024 + n]. -/
theorem b_blk (c : Dev nD) (t : Fin cfg0.N) (n : Fin 1024) :
    (iblk m c 3 t : Vec Ideal S1x1024 .f32) (ix2 (0 : Fin 1) n)
      = m ((c : Thread nD τ).loc main_arg3) (ix1 (⟨t.val / 4 % 4 * 1024 + n.val, by have := n.isLt; omega⟩ : Fin 4096)) := by
  unfold iblk
  rw [View.read_apply]
  show V m c main_v5 (((cfg0.win 3).blk t).view.emb (ix2 (0 : Fin 1) n)) = _
  refine (congrFun (arr3 m c) _).trans (b_at _ _ _ ?_ ?_)
  · show win0_3.index t (0 : Fin 2) * 1 + 1 * 0 = 0
    rw [(idx3 t).1]
  · show win0_3.index t (1 : Fin 2) * 1024 + 1 * n.val = t.val / 4 % 4 * 1024 + n.val
    rw [(idx3 t).2]; omega

end Cert.KernelIdeal.Blocks

end
-- ==== Proof.Cover.lean ====
/-
  Where the output tiles sit in the [8192, 4096] result, and that they fill it.

  The output window's block at grid point t = (row tile t/16, column tile t/4 % 4, step t % 4) is the 2048 x 1024 tile at
  block index (t/16, t/4 % 4): its entry (r, n) is entry ((t/16)·2048 + r, (t/4 % 4)·1024 + n) of the array. The tile is
  written back at the last step of each run (t % 4 = 3); the sixteen runs' tiles are the sixteen tiles of the 4 x 4
  tiling, so every entry (R, N) of the array lies in the tile written back at point 16·(R/2048) + 4·(N/1024) + 3.
-/
import proofs.«120927_j11441792877192_2_alg».proof.Proof.Gen.KernelIdeal.Frame.Runs
import Idealize.ShloMosaic.Lib.Pipeline.Value
import Idealize.ShloMosaic.Lib.ValueIdx

noncomputable section

namespace Cert.KernelIdeal.Cover

open Cert.KernelIdeal Cert.KernelIdeal.Gen Idealize.ShloMosaic Idealize.ShloMosaic.TcCoe Idealize.SL.Sem
open Idealize.ShloMosaic.ValueIdx

/-- The grid has 64 points. -/
theorem hN : cfg0.N = 64 := N_0

/-- The output window's block index at point t is (t / 16, t / 4 % 4). -/
private theorem idx4 : ∀ t : Fin cfg0.N, win0_4.index t (0 : Fin 2) = t.val / 4 / 4 ∧ win0_4.index t (1 : Fin 2) = t.val / 4 % 4 :=
  (by decide +kernel : ∀ t : Fin grid0.N, _)

/-- Entry (r, n) of the output tile at point t is entry ((t/16)·2048 + r, (t/4 % 4)·1024 + n) of the result
    (t/16 written t/4/4). -/
theorem emb4 (t : Fin cfg0.N) (r : Fin 2048) (n : Fin 1024) :
    ((cfg0.win 4).blk t).view.emb (ix2 r n)
      = ix2 (⟨t.val / 4 / 4 * 2048 + r.val, by have := t.isLt; have := hN; have := r.isLt; omega⟩ : Fin 8192)
            (⟨t.val / 4 % 4 * 1024 + n.val, by have := n.isLt; omega⟩ : Fin 4096) := by
  funext a
  apply Fin.ext
  match a with
  | ⟨0, _⟩ =>
    show win0_4.index t (0 : Fin 2) * 2048 + 1 * r.val = t.val / 4 / 4 * 2048 + r.val
    rw [(idx4 t).1]; omega
  | ⟨1, _⟩ =>
    show win0_4.index t (1 : Fin 2) * 1024 + 1 * n.val = t.val / 4 % 4 * 1024 + n.val
    rw [(idx4 t).2]; omega

/-- Every entry of the result lies in the tile of some point that writes its tile back. -/
theorem cover4 (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hlt : 16 * ((i 0).val / 2048) + 4 * ((i 1).val / 1024) + 3 < cfg0.N := by rw [hN]; omega
  obtain ⟨t, ht⟩ : ∃ t : Fin cfg0.N, t.val = 16 * ((i 0).val / 2048) + 4 * ((i 1).val / 1024) + 3 := ⟨⟨_, hlt⟩, rfl⟩
  obtain ⟨e0, e1⟩ := idx4 t
  refine ⟨t, (flush0_4 t).mpr (by omega), ?_⟩
  show i ∈ ((View.whole main_v6).slice (win0_4.rect t)).set
  rw [View.set_slice_whole, Rect.mem_set_unit]
  intro a
  match a with
  | ⟨0, _⟩ =>
    show win0_4.index t (0 : Fin 2) * 2048 ≤ (i 0).val ∧ (i 0).val < win0_4.index t (0 : Fin 2) * 2048 + 2048
    rw [e0]; omega
  | ⟨1, _⟩ =>
    show win0_4.index t (1 : Fin 2) * 1024 ≤ (i 1).val ∧ (i 1).val < win0_4.index t (1 : Fin 2) * 1024 + 1024
    rw [e1]; omega

end Cert.KernelIdeal.Cover

end
-- ==== Proof.Dot.lean ====
/-
  One run's four product tiles, in terms of the argument arrays.

  Run p (points 4p, …, 4p+3; p < 16) works on row tile p/4 and column tile p%4. Point 4p+s reads columns
  s·1024 … s·1024+1023 of the contraction axis: its product tile at (r, n) is Σ_{j<1024} x'[R, s·1024+j] · w[N, s·1024+j]
  with R = (p/4)·2048 + r, N = (p%4)·1024 + n, x' the flattened activations and w the dequantized weight. The four
  consecutive runs of 1024 columns make up all 4096, so the four tiles sum to Σ_{k<4096} x'[R, k] · w[N, k].
-/
import proofs.«120927_j11441792877192_2_alg».proof.Proof.Acc
import proofs.«120927_j11441792877192_2_alg».proof.Proof.Blocks
import proofs.«120927_j11441792877192_2_alg».proof.Proof.Spec

noncomputable section

namespace Cert.KernelIdeal.Dot

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Term k of the full contraction of row R of the flattened activations with row N of the dequantized weight,
    extended by zero past the 4096 columns. -/
private def term (x : (⟨3, ![2, 4096, 4096]⟩ : Shape).Idx → EReal) (q : (⟨2, ![4096, 4096]⟩ : Shape).Idx → EReal)
    (s : (⟨1, ![131072]⟩ : Shape).Idx → EReal) (R : Fin 8192) (N : Fin 4096) (k : ℕ) : EReal :=
  if h : k < 4096 then Cert.Spec.xrow x R ⟨k, h⟩ * Cert.Spec.wdq q s N ⟨k, h⟩ else 0

/-- Point 4p+s's product tile at (r, n) is the s-th run of 1024 terms of the full contraction. -/
private theorem tile_run (c : Dev nD) (p : ℕ) (hp : p < 16) (r : Fin 2048) (n : Fin 1024) (s : ℕ) (hs : s < 4) :
    Acc.dotN m c (4 * p + s) r n
      = ∑ j : Fin 1024, term (m ((c : Thread nD τ).loc main_arg0)) (m ((c : Thread nD τ).loc main_arg1))
          (m ((c : Thread nD τ).loc main_arg2))
          (⟨p / 4 * 2048 + r.val, by have := r.isLt; omega⟩ : Fin 8192)
          (⟨p % 4 * 1024 + n.val, by have := n.isLt; omega⟩ : Fin 4096) (s * 1024 + j.val) := by
  have ht : 4 * p + s < cfg0.N := by rw [Blocks.hN]; omega
  rw [Acc.dotN_of_lt m c (4 * p + s) ht]
  unfold Pay.tileDot
  refine Finset.sum_congr rfl fun j _ => ?_
  have hj : j.val < 1024 := j.isLt
  have hr : r.val < 2048 := r.isLt
  have hn : n.val < 1024 := n.isLt
  have hlt : s * 1024 + j.val < 4096 := by omega
  unfold term
  rw [dif_pos hlt]
  unfold Cert.Spec.wdq
  refine congrArg₂ (· * ·) ?_ (congrArg₂ (· * ·) ?_ ?_)
  · refine (Blocks.x_blk m c ⟨4 * p + s, ht⟩ r j).trans ?_
    exact congrArg₂ (Cert.Spec.xrow (m ((c : Thread nD τ).loc main_arg0)))
      (Fin.ext (by show (4 * p + s) / 16 * 2048 + r.val = p / 4 * 2048 + r.val; omega))
      (Fin.ext (by show (4 * p + s) % 4 * 1024 + j.val = s * 1024 + j.val; omega))
  · refine (Blocks.q_blk m c ⟨4 * p + s, ht⟩ n ⟨j.val / 128, by omega⟩ ⟨j.val % 128, by omega⟩).trans ?_
    exact congrArg₂ (fun (a b : Fin 4096) => m ((c : Thread nD τ).loc main_arg1) (ix2 a b))
      (Fin.ext (by show (4 * p + s) / 4 % 4 * 1024 + n.val = p % 4 * 1024 + n.val; omega))
      (Fin.ext (by show ((4 * p + s) % 4 * 8 + j.val / 128) * 128 + j.val % 128 = s * 1024 + j.val; omega))
  · refine (Blocks.s_blk m c ⟨4 * p + s, ht⟩ n ⟨j.val / 128, by omega⟩).trans ?_
    exact congrArg (fun (a : Fin 131072) => m ((c : Thread nD τ).loc main_arg2) (ix1 a))
      (Fin.ext (by
        show ((4 * p + s) / 4 % 4 * 1024 + n.val) * 32 + ((4 * p + s) % 4 * 8 + j.val / 128)
          = ((p % 4 * 1024 + n.val) * 4096 + (s * 1024 + j.val)) / 128
        omega))

/-- The four product tiles of run p sum, at (r, n), to the full contraction of row (p/4)·2048 + r of the flattened
    activations with row (p%4)·1024 + n of the dequantized weight. -/
theorem run_sum (c : Dev nD) (p : ℕ) (hp : p < 16) (r : Fin 2048) (n : Fin 1024) :
    (∑ s ∈ Finset.range 4, Acc.dotN m c (4 * p + s) r n)
      = ∑ k : Fin 4096,
          Cert.Spec.xrow (m ((c : Thread nD τ).loc main_arg0)) (⟨p / 4 * 2048 + r.val, by have := r.isLt; omega⟩ : Fin 8192) k
            * Cert.Spec.wdq (m ((c : Thread nD τ).loc main_arg1)) (m ((c : Thread nD τ).loc main_arg2))
                (⟨p % 4 * 1024 + n.val, by have := n.isLt; omega⟩ : Fin 4096) k := by
  refine (Finset.sum_congr rfl fun s hs => tile_run m c p hp r n s (Finset.mem_range.mp hs)).trans ?_
  refine (Cert.Spec.sum_four_runs (term (m ((c : Thread nD τ).loc main_arg0)) (m ((c : Thread nD τ).loc main_arg1))
    (m ((c : Thread nD τ).loc main_arg2)) (⟨p / 4 * 2048 + r.val, by have := r.isLt; omega⟩ : Fin 8192)
    (⟨p % 4 * 1024 + n.val, by have := n.isLt; omega⟩ : Fin 4096))).trans ?_
  exact Finset.sum_congr rfl fun k _ => dif_pos k.isLt

end Cert.KernelIdeal.Dot

end
-- ==== Proof.TailRead.lean ====
/-
  The kernel program's result buffer after the run: the one host line after the kernel recasts the kernel's
  [8192, 4096] output array row-major as [2, 4096, 4096], so the result is that recast of whatever the output array
  ends holding.
-/
import proofs.«120927_j11441792877192_2_alg».proof.Proof.Gen.KernelIdeal.Frame
import Idealize.ShloMosaic.Lib.Pipeline.Value
import Idealize.ShloMosaic.Lib.StableHlo.Run
import Idealize.ShloMosaic.PureOps.Ideal

noncomputable section

namespace Cert.KernelIdeal.TailRead

open Cert.KernelIdeal Cert.KernelIdeal.Gen Idealize.ShloMosaic Idealize.ShloMosaic.TcCoe Idealize.SL.Sem

variable (m : (ℓ : Loc nD τ sig) → Buf (Elt Ideal) ℓ)

/-- The program's result is the row-major recast of the kernel's output array as the run leaves it. -/
theorem tail_eq (c : Dev nD) :
    (Pipeline.afterTail₀ cfgs (dats m) 0 (V0 m) [hostOps1] c main_v7 : S2x4096x4096.Idx → EReal)
      = shapeCast S2x4096x4096 ((dats m 0 c).arrAt 4 cfg0.N : S8192x4096.Idx → EReal) shapeCasts_S8192x4096_S2x4096x4096 := by
  unfold Pipeline.afterTail₀
  -- the one host line after the kernel, run from the contents the kernel leaves
  show StableHlo.after hostOps1 _ (Proc.devRef .tc main_v7) = _
  after_results
  -- the recast reads the kernel's output array, which the kernel leaves at its final contents
  have h := Pipeline.withArrays_arr (cfgs 0).spec launch0.win.arr_inj c (V0 m c) (fun w => (dats m 0 c).arrAt w (cfgs 0).N) 4
  exact congrArg (fun y : S8192x4096.Idx → EReal => shapeCast S2x4096x4096 y shapeCasts_S8192x4096_S2x4096x4096) h

end Cert.KernelIdeal.TailRead

end
-- ==== Proof.Reshape.lean ====
/-
  The kernel program's last host line recasts the [8192, 4096] result row-major as [2, 4096, 4096]: entry (B, S, n) of
  the recast array is entry (B·4096 + S, n) of the original, so the recast of the two-axis form of the common function
  is its three-axis form.
-/
import proofs.«120927_j11441792877192_2_alg».proof.Proof.Gen.KernelIdeal
import proofs.«120927_j11441792877192_2_alg».proof.Proof.Spec
import Idealize.ShloMosaic.Lib.Pipeline.Value
import Idealize.ShloMosaic.Lib.ValueIdx

noncomputable section

namespace Cert.KernelIdeal.Tail

open Cert.KernelIdeal Cert.KernelIdeal.Facts₀ Idealize.ShloMosaic Idealize.ShloMosaic.ValueIdx

/-- The row-major recast of the [8192, 4096] form of the result is its [2, 4096, 4096] form. -/
theorem reshape_lin2 (x : (⟨3, ![2, 4096, 4096]⟩ : Shape).Idx → EReal) (q : (⟨2, ![4096, 4096]⟩ : Shape).Idx → EReal)
    (s : (⟨1, ![131072]⟩ : Shape).Idx → EReal) (b : (⟨1, ![4096]⟩ : Shape).Idx → EReal) :
    (shapeCast S2x4096x4096 (Cert.Spec.lin2 x q s b : S8192x4096.Idx → EReal) shapeCasts_S8192x4096_S2x4096x4096
        : S2x4096x4096.Idx → EReal)
      = Cert.Spec.lin3 x q s b := by
  funext i
  obtain ⟨B, S, n, rfl⟩ : ∃ (B : Fin 2) (S n : Fin 4096), i = ix3 B S n := ⟨i 0, i 1, i 2, eq_ix3 i⟩
  have hR : B.val * 4096 + S.val < 8192 := by have := B.isLt; have := S.isLt; omega
  -- entry (B, S, n) of the recast array is entry (B·4096 + S, n) of the original: both sit at the
  -- row-major position (B·4096 + S)·4096 + n
  refine (shapeCast_apply (Cert.Spec.lin2 x q s b : S8192x4096.Idx → EReal) shapeCasts_S8192x4096_S2x4096x4096
    (ix3 B S n) (ix2 (⟨B.val * 4096 + S.val, hR⟩ : Fin 8192) n) ?_).trans ?_
  · rw [Shape.rowMajor_val_two, Shape.rowMajor_val_three]
    show (B.val * 4096 + S.val) * 4096 + n.val = (B.val * 4096 + S.val) * 4096 + n.val
    rfl
  · -- row B·4096 + S of the two-axis form is row (B, S) of the three-axis form
    exact Cert.Spec.lin2at_row x q s b B S n ⟨B.val * 4096 + S.val, hR⟩ rfl

end Cert.KernelIdeal.Tail

end
-- ==== Proof.Final.lean ====
/-
  The kernel program's run, read as values: its result buffer ends at the common function of the arguments.

  At the last step of run p = t/4 (t % 4 = 3) the output tile holds, at (r, n), the sum of the run's four product tiles
  plus the bias of column (t/4 % 4)·1024 + n; the four tiles together are the full contraction over k < 4096, so the
  tile is the [8192, 4096] form of the common function read through the tile's rectangle. The sixteen tiles written back
  fill the array, so the array ends at that function; the last host line recasts it to [2, 4096, 4096].
-/
import proofs.«120927_j11441792877192_2_alg».proof.Proof.Acc
import proofs.«120927_j11441792877192_2_alg».proof.Proof.Blocks
import proofs.«120927_j11441792877192_2_alg».proof.Proof.Cover
import proofs.«120927_j11441792877192_2_alg».proof.Proof.Dot
import proofs.«120927_j11441792877192_2_alg».proof.Proof.TailRead
import proofs.«120927_j11441792877192_2_alg».proof.Proof.Reshape

noncomputable section

namespace Cert.KernelIdeal.Final

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The [8192, 4096] form of the result, of core c's argument arrays. -/
abbrev res2 (c : Dev nD) : S8192x4096.Idx → EReal := Cert.Spec.lin2 (m ((c : Thread nD τ).loc main_arg0)) (m ((c : Thread nD τ).loc main_arg1)) (m ((c : Thread nD τ).loc main_arg2)) (m ((c : Thread nD τ).loc main_arg3))

/-- The [2, 4096, 4096] form of the result, of core c's argument arrays. -/
abbrev res3 (c : Dev nD) : S2x4096x4096.Idx → EReal := Cert.Spec.lin3 (m ((c : Thread nD τ).loc main_arg0)) (m ((c : Thread nD τ).loc main_arg1)) (m ((c : Thread nD τ).loc main_arg2)) (m ((c : Thread nD τ).loc main_arg3))

/-- At the last step of a run the output tile holds, at (r, n), the result at row (t/16)·2048 + r and column
    (t/4 % 4)·1024 + n: the run's four product tiles sum to the full contraction, and the bias row is added. -/
theorem out_val (c : Dev nD) (t : Fin cfg0.N) (h1 : t.val % 4 = 3) (r : Fin 2048) (n : Fin 1024) :
    (outsAt0 m c t.val t.isLt).1 (ix2 r n)
      = Cert.Spec.lin2at (m ((c : Thread nD τ).loc main_arg0)) (m ((c : Thread nD τ).loc main_arg1)) (m ((c : Thread nD τ).loc main_arg2)) (m ((c : Thread nD τ).loc main_arg3))
          (⟨t.val / 4 / 4 * 2048 + r.val, by have := t.isLt; have := Cover.hN; have := r.isLt; omega⟩ : Fin 8192)
          (⟨t.val / 4 % 4 * 1024 + n.val, by have := n.isLt; omega⟩ : Fin 4096) := by
  have hp : t.val / 4 < 16 := by have := t.isLt; have := Cover.hN; omega
  refine (congrFun (Acc.out_last m c t h1) (ix2 r n)).trans ?_
  refine (Pay.pay3_apply (outsAt0 m c t.val t.isLt).2 (iblk m c 3 t) r n).trans ?_
  rw [Acc.acc_eq m c t.val t.isLt r n, h1]
  show (∑ s ∈ Finset.range 4, Acc.dotN m c (4 * (t.val / 4) + s) r n) + _ = _
  rw [Dot.run_sum m c (t.val / 4) hp r n]
  unfold Cert.Spec.lin2at
  exact congrArg _ (Blocks.b_blk m c t n)

/-- What a point writes back is the result read through the point's tile. -/
theorem flushed_eq (c : Dev nD) (t : Fin cfg0.N) (hf : (cfg0.win 4).flush t = true) :
    (dats m 0 c).flushed 4 t = ((cfg0.win 4).blk t).view.read (Elt Ideal) (res2 m c) := by
  have h1 : t.val % 4 = 3 := (flush0_4 t).mp hf
  show (cfg0.win 4).cut (grid0.coords t) ((dats m 0 c).after 4 t) = _
  rw [after0_4]
  funext y
  obtain ⟨r, n, rfl⟩ : ∃ (r : Fin 2048) (n : Fin 1024), y = ix2 r n := ⟨y 0, y 1, eq_ix2 y⟩
  rw [View.read_apply, Cover.emb4 t r n]
  exact out_val m c t h1 r n

/-- The kernel's output array ends at the [8192, 4096] form of the result. -/
theorem final (c : Dev nD) : (dats m 0 c).arrAt 4 cfg0.N = res2 m c :=
  (dats m 0 c).arrAt_eq_of_cover 4 (res2 m c) (fun t hf => flushed_eq m c t hf) Cover.cover4

/-- The program's result buffer ends at the [2, 4096, 4096] form of the result. -/
theorem result_eq (c : Dev nD) :
    Pipeline.afterTail₀ cfgs (dats m) 0 (V0 m) [hostOps1] c main_v7 = res3 m c := by
  refine (TailRead.tail_eq m c).trans ?_
  rw [final m c]
  exact Tail.reshape_lin2 (m ((c : Thread nD τ).loc main_arg0)) (m ((c : Thread nD τ).loc main_arg1)) (m ((c : Thread nD τ).loc main_arg2)) (m ((c : Thread nD τ).loc main_arg3))

/-- THE RUN, READ: every weakly fair execution of the kernel program terminates with its result buffer at the common
    function of the arguments and the arguments unchanged. -/
theorem run : θ_run defs (onTc (τ := τ) (main (F := Ideal))) ⟨m, fun _ => 0, ρ⟩ (fun r => ∀ c : Dev nD,
      r.2.mem ((c.tc : Thread nD τ).loc main_v7) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefSide.lean ====
/-
  The reference program's result is the common function of the arguments.

  The reference recasts the quantized weight q : [4096, 4096] row-major as [131072, 128], multiplies row e by the scale
  s[e], recasts back, contracts x : [2, 4096, 4096] with it over the last axis of both, and adds the bias along the last
  axis. Entry (n, k) of the recast weight sits in row (n·4096 + k) / 128 of the [131072, 128] array, so the dequantized
  entry is q[n, k] · s[(n·4096 + k) / 128], and the result at (B, S, n) is
  (Σ_k x[B, S, k] · (q[n, k] · s[(n·4096 + k) / 128])) + b[n].
-/
import proofs.«120927_j11441792877192_2_alg».proof.Proof.Gen.ReferenceIdeal.Read
import proofs.«120927_j11441792877192_2_alg».proof.Proof.Spec

noncomputable section

namespace Cert.RefSide

open Cert.ReferenceIdeal Idealize.ShloMosaic Idealize.ShloMosaic.ValueIdx

/-- The reference's last stage, at the extended reals, is the common function of the four arguments. -/
theorem ref_eq (x0 : (⟨S2x4096x4096, .f32⟩ : BufTy).Contents (Elt Ideal)) (x1 : (⟨S4096x4096, .f32⟩ : BufTy).Contents (Elt Ideal))
    (x2 : (⟨S131072, .f32⟩ : BufTy).Contents (Elt Ideal)) (x3 : (⟨S4096, .f32⟩ : BufTy).Contents (Elt Ideal)) :
    Cert.ReferenceIdeal.Read.val_main_v8 (F := Ideal) x0 x1 x2 x3 = Cert.Spec.lin3 x0 x1 x2 x3 := by
  funext i
  obtain ⟨B, S, n, rfl⟩ : ∃ (B : Fin 2) (S n : Fin 4096), i = ix3 B S n := ⟨i 0, i 1, i 2, eq_ix3 i⟩
  -- the last stage is the contraction plus the bias broadcast along the last axis
  rw [Read.val_main_v8_apply, Read.val_main_v5_apply, Read.val_main_v7_apply, Read.val_main_v6_apply]
  show (∑ k : Fin 4096, _) + _ = Cert.Spec.lin3at x0 x1 x2 x3 B S n
  unfold Cert.Spec.lin3at
  congr 1
  · refine Finset.sum_congr rfl fun k _ => ?_
    -- entry (n, k) of the dequantized weight: recast, scale row (n·4096 + k) / 128, recast back
    rw [Read.val_main_v4_apply, Read.val_main_v3_apply, Read.val_main_v0_apply, Read.val_main_v2_apply, Read.val_main_v1_apply]
    -- the left operand of the contraction is read at (B, S, k)
    have e0 : Read.lidx_main_v5 (ix3 B S n) k = ix3 B S k := funext fun a => Fin.ext (by
      match a with
      | ⟨0, _⟩ => rfl
      | ⟨1, _⟩ => rfl
      | ⟨2, _⟩ => rfl)
    -- recasting [4096, 4096] to [131072, 128] and back is the identity on positions:
    -- with p = n·4096 + k, (p / 128)·128 + p % 128 = p, and p / 4096 = n, p % 4096 = k
    have e1 : Read.idx_main_v0 (Read.idx_main_v4 (Read.ridx_main_v5 (ix3 B S n) k)) = ix2 n k := funext fun a => Fin.ext (by
      have hn := n.isLt
      have hk := k.isLt
      match a with
      | ⟨0, _⟩ =>
        show ((n.val * 4096 + k.val) / 128 * 128 + (n.val * 4096 + k.val) % 128) / 4096 = n.val
        omega
      | ⟨1, _⟩ =>
        show ((n.val * 4096 + k.val) / 128 * 128 + (n.val * 4096 + k.val) % 128) % 4096 = k.val
        omega)
    -- the scale is read at the row (n·4096 + k) / 128 of the recast weight
    have e2 : Read.idx_main_v1 (Read.idx_main_v2 (Read.idx_main_v4 (Read.ridx_main_v5 (ix3 B S n) k)))
        = ix1 ⟨(n.val * 4096 + k.val) / 128, by have := n.isLt; have := k.isLt; omega⟩ := funext fun a => Fin.ext (by
      match a with
      | ⟨0, _⟩ => rfl)
    rw [e0, e1, e2]
    rfl
  · -- the bias is read at n
    have e3 : Read.idx_main_v6 (Read.idx_main_v7 (ix3 B S n)) = ix1 n := funext fun a => Fin.ext (by
      match a with
      | ⟨0, _⟩ => rfl)
    rw [e3]

end Cert.RefSide

end
-- ==== Proof.lean ====
/-
  A fused dequantize-and-multiply kernel against its plain reference, equal over the extended reals.

  Arguments: x : [2, 4096, 4096], a quantized weight q : [4096, 4096], one scale s[e] per run of 128 consecutive
  entries of q in row-major order (s : [131072]), and a bias b : [4096]. Both programs compute

      y[B, S, n] = (Σ_{k < 4096} x[B, S, k] · (q[n, k] · s[(n·4096 + k) / 128])) + b[n].

  The reference recasts q to [131072, 128], scales row e by s[e], recasts back, contracts with x and adds the bias.
  The kernel flattens x to [8192, 4096], cuts q and s into runs of 128, and walks a 4 x 4 x 4 grid of (row tile, column
  tile, step): each step adds the product of a 2048 x 1024 tile of x with a 1024 x 1024 tile of the dequantized weight
  into an accumulator that starts at zero, and the last step of a run adds the bias row and writes the 2048 x 1024
  output tile. Over the extended reals the changes of float format are the identity and a matrix product is the sum of
  products, so a run leaves (((0 + d₀) + d₁) + d₂) + d₃ + b, with dₛ the partial contraction over columns
  s·1024 … s·1024 + 1023; regrouping the sum over k into these four consecutive runs uses only that addition is
  associative with unit 0, which holds on the extended reals with no finiteness assumption, so the precondition is
  never opened. The sixteen output tiles fill the [8192, 4096] array, and the last host line recasts it to
  [2, 4096, 4096].

  The idealization rewrote no operation, so the preservation claim is trivially true. The two kernels' frames are the
  generated frame runs; the reference's frame is its generated run with the result dropped.
-/
import proofs.«120927_j11441792877192_2_alg».proof.Defs
import proofs.«120927_j11441792877192_2_alg».proof.Proof.Gen.Kernel
import proofs.«120927_j11441792877192_2_alg».proof.Proof.Gen.Kernel.Frame
import proofs.«120927_j11441792877192_2_alg».proof.Proof.Gen.KernelIdeal
import proofs.«120927_j11441792877192_2_alg».proof.Proof.Gen.KernelIdeal.Frame
import proofs.«120927_j11441792877192_2_alg».proof.Proof.Gen.ReferenceIdeal
import proofs.«120927_j11441792877192_2_alg».proof.Proof.Gen.ReferenceIdeal.Run
import proofs.«120927_j11441792877192_2_alg».proof.Proof.Gen.ReferenceIdeal.Read
import proofs.«120927_j11441792877192_2_alg».proof.Proof.Gen.Pre_finite_inputs
import proofs.«120927_j11441792877192_2_alg».proof.Proof.Final
import proofs.«120927_j11441792877192_2_alg».proof.Proof.RefSide

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the four arguments both programs end with the same result: the kernel program at the
    common function of its arguments, the reference at its last stage, which is that function of the same arguments. -/
theorem algebraic : Cert.algebraic_KernelIdeal_ReferenceIdeal := by
  intro m ρ m' ρ' _ hagree
  refine ⟨fun c => Cert.KernelIdeal.Final.res3 m c, Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.RefSide.ref_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
